-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 28
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x128, .bf16⟩
  | .hbm, ⟨24, _⟩ => ⟨S128x128, .bf16⟩
  | .hbm, ⟨25, _⟩ => ⟨S1x128, .f32⟩
  | .hbm, ⟨26, _⟩ => ⟨S1x128, .f32⟩
  | .hbm, ⟨27, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GinSpec.lean ====
/-
  The dense half of a graph-isomorphism layer, one node at a time, over the extended reals.

  A node's feature row `h` (128 entries) goes through two affine maps with a rectifier between them:
    hidden unit k :  u k = max (∑ l, h l · W1 (l, k) + b1 k) 0
    output entry c:  (∑ k, u k · W2 (k, c)) + b2 c.
  The row fed in is the node's own features plus the sum of its in-neighbours' features (`agg`); the
  aggregate is an argument here, so nothing below depends on how it was gathered. Every sum runs over the
  128 features in their natural order and no term is moved across a sum, so no finiteness is needed: the
  formulas are read on the extended reals as they stand.
-/
import Idealize.ShloMosaic.Lib.ValueIdx

noncomputable section

open scoped BigOperators

namespace Cert.Gin

open Idealize.ShloMosaic Idealize.ShloMosaic.ValueIdx

/-- Hidden unit `k` of a feature row `h`: the rectified affine image, the rectifier's zero kept as the f32 word it is
    written with. -/
def hiddenUnit (h : Fin 128 → EReal) (W1 : (⟨2, ![128, 128]⟩ : Shape).Idx → EReal) (b1 : Fin 128 → EReal)
    (k : Fin 128) : EReal :=
  max ((∑ l : Fin 128, h l * W1 (ix2 l k)) + b1 k) (Ideal.ofBits .f32 0x00000000#32)

/-- Output entry `c` of a feature row `h`: the second affine map of the hidden units. -/
def mlpRow (h : Fin 128 → EReal) (W1 : (⟨2, ![128, 128]⟩ : Shape).Idx → EReal) (b1 : Fin 128 → EReal)
    (W2 : (⟨2, ![128, 128]⟩ : Shape).Idx → EReal) (b2 : Fin 128 → EReal) (c : Fin 128) : EReal :=
  (∑ k : Fin 128, hiddenUnit h W1 b1 k * W2 (ix2 k c)) + b2 c

/-- The layer's result for all 100000 nodes: entry (r, c) is the perceptron of row r of `x + agg` at column c. -/
def ginOut (x agg : (⟨2, ![100000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![100000, 128]⟩ : Shape).Idx → EReal :=
  fun i => mlpRow (fun l => x (ix2 (i 0) l) + agg (ix2 (i 0) l)) W1 (fun k => b1 (ix1 k)) W2 (fun k => b2 (ix1 k)) (i 1)

/-- The result at explicit coordinates. -/
theorem ginOut_apply (x agg : (⟨2, ![100000, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (r : Fin 100000) (c : Fin 128) :
    ginOut x agg W1 b1 W2 b2 (ix2 r c)
      = mlpRow (fun l => x (ix2 r l) + agg (ix2 r l)) W1 (fun k => b1 (ix1 k)) W2 (fun k => b2 (ix1 k)) c := rfl

end Cert.Gin

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.GinPayload.lean ====
/-
  What the kernel body stores, read at one entry of its 2000×128 block.

  The body adds the feature block and the aggregate block, multiplies by the first weight matrix into a zero accumulator,
  adds the first bias row laid down the block, rectifies against a zero splat, multiplies by the second weight matrix into
  a zero accumulator and adds the second bias row. The roundings to bf16 on the way into each product are the identity on
  the extended reals, and the same-shape casts change nothing. At block entry (p, q) this is the perceptron of
  `Cert.Gin.mlpRow` applied to row p of the two blocks' sum, with the bias rows read at their one row.
-/
import proofs.«149661_j32487132627458_1_alg».proof.Proof.Gen.KernelIdeal.Skeleton
import proofs.«149661_j32487132627458_1_alg».proof.Proof.GinSpec
import proofs.«149661_j32487132627458_1_alg».proof.Proof.LibPlainDot
import Idealize.ShloMosaic.Lib.Pipeline.Value
import Idealize.ShloMosaic.Lib.ValueLayout

noncomputable section

open scoped BigOperators

namespace Cert.Gin.Kernel

open Cert.KernelIdeal Cert.KernelIdeal.Gen Idealize.ShloMosaic Idealize.ShloMosaic.ValueIdx

/-- The body's dimension numbers are those of a plain 2000×128 by 128×128 product. -/
theorem dot_plain : dot_S2000x128_S128x128_S2000x128_1_0_0_1_n_n = DotDims.plain 2000 128 128 := rfl

/-- A 2000×128 by 128×128 product into the zero splat, at (p, k): the sum over the contracted feature. -/
theorem product_apply (lhs : FVec Ideal S2000x128 .bf16) (rhs : FVec Ideal S128x128 .bf16) (p : Fin 2000) (k : Fin 128) :
    matmul dot_S2000x128_S128x128_S2000x128_1_0_0_1_n_n none lhs rhs (constant S2000x128 .f32 0x00000000#32) (ix2 p k)
      = ∑ l : Fin 128, lhs (ix2 p l) * rhs (ix2 l k) :=
  PlainDot.matmul_zero_apply (M := 2000) (K := 128) (N := 128) none lhs rhs p k

/-- A bias row laid down the block reads, at (p, k), the row's entry k. -/
theorem bias_apply (b : FVec Ideal S1x128 .f32) (p : Fin 2000) (k : Fin 128) :
    broadcastTo S2000x128 b broadcasts_S1x128_S2000x128 (ix2 p k) = b (ix2 (0 : Fin 1) k) :=
  broadcastTo_1b_ab_apply b broadcasts_S1x128_S2000x128 p k

/-- The rectified first layer of the body at (p, k) is hidden unit k of row p of the two blocks' sum. -/
theorem hidden_apply (x0 x1 : FVec Ideal S2000x128 .f32) (w1 : FVec Ideal S128x128 .bf16) (b1 : FVec Ideal S1x128 .f32)
    (p : Fin 2000) (k : Fin 128) :
    maximumf (addf (matmul dot_S2000x128_S128x128_S2000x128_1_0_0_1_n_n none (truncf .bf16 (addf x0 x1) bitsLt_bf16_f32) w1
          (constant S2000x128 .f32 0x00000000#32)) (broadcastTo S2000x128 b1 broadcasts_S1x128_S2000x128))
        (broadcast S2000x128 (Scalar.ofBits (F := Ideal) .f32 0x00000000#32)) (ix2 p k)
      = hiddenUnit (fun l => x0 (ix2 p l) + x1 (ix2 p l)) w1 (fun k => b1 (ix2 (0 : Fin 1) k)) k := by
  unfold hiddenUnit
  refine congrArg₂ max (congrArg₂ (· + ·) ?_ (bias_apply b1 p k)) rfl
  exact product_apply _ w1 p k

/-- THE PAYLOAD AT (p, q): the perceptron of row p of the feature block plus the aggregate block, at column q. -/
theorem payload_apply (x0 x1 : FVec Ideal S2000x128 .f32) (w1 : FVec Ideal S128x128 .bf16) (b1 : FVec Ideal S1x128 .f32)
    (w2 : FVec Ideal S128x128 .bf16) (b2 : FVec Ideal S1x128 .f32) (p : Fin 2000) (q : Fin 128) :
    k0_pay1 (F := Ideal) x0 x1 w1 b1 w2 b2 (ix2 p q)
      = mlpRow (fun l => x0 (ix2 p l) + x1 (ix2 p l)) w1 (fun k => b1 (ix2 (0 : Fin 1) k)) w2 (fun k => b2 (ix2 (0 : Fin 1) k)) q := by
  unfold k0_pay1 mlpRow
  simp only [shapeCast_self]
  refine congrArg₂ (· + ·) ?_ (bias_apply b2 p q)
  refine (product_apply _ w2 p q).trans (Finset.sum_congr rfl fun k _ => ?_)
  exact congrArg (· * w2 (ix2 k q)) (hidden_apply x0 x1 w1 b1 p k)

/-- THE PAYLOAD AGAINST WHOLE ARRAYS. If row p of the two row blocks is row r of arrays `X` and `A`, and the weight and bias
    blocks are the arrays `W1`, `B1`, `W2`, `B2` entry for entry, then the payload at (p, q) is the layer's specification of
    those arrays at (r, q). The arrays are arbitrary: nothing is assumed about how they were computed. -/
theorem payload_rows (X A : (⟨2, ![100000, 128]⟩ : Shape).Idx → EReal) (W1 W2 : (⟨2, ![128, 128]⟩ : Shape).Idx → EReal)
    (B1 B2 : (⟨2, ![1, 128]⟩ : Shape).Idx → EReal)
    (x0 x1 : FVec Ideal S2000x128 .f32) (w1 : FVec Ideal S128x128 .bf16) (b1 : FVec Ideal S1x128 .f32)
    (w2 : FVec Ideal S128x128 .bf16) (b2 : FVec Ideal S1x128 .f32) (r : Fin 100000) (p : Fin 2000)
    (h0 : ∀ l : Fin 128, x0 (ix2 p l) = X (ix2 r l)) (h1 : ∀ l : Fin 128, x1 (ix2 p l) = A (ix2 r l))
    (h2 : ∀ a b : Fin 128, w1 (ix2 a b) = W1 (ix2 a b)) (h3 : ∀ k : Fin 128, b1 (ix2 (0 : Fin 1) k) = B1 (ix2 (0 : Fin 1) k))
    (h4 : ∀ a b : Fin 128, w2 (ix2 a b) = W2 (ix2 a b)) (h5 : ∀ k : Fin 128, b2 (ix2 (0 : Fin 1) k) = B2 (ix2 (0 : Fin 1) k))
    (q : Fin 128) :
    k0_pay1 (F := Ideal) x0 x1 w1 b1 w2 b2 (ix2 p q)
      = ginOut X A W1 (fun j => B1 (ix2 (0 : Fin 1) (j 0))) W2 (fun j => B2 (ix2 (0 : Fin 1) (j 0))) (ix2 r q) := by
  rw [payload_apply, ginOut_apply]
  unfold mlpRow hiddenUnit
  simp only [h0, h1, h2, h3, h4, h5]

end Cert.Gin.Kernel

end
-- ==== Proof.GinBlocks.lean ====
/-
  From the kernel's blocks to its whole result array.

  The grid has 50 points; point t stages rows 2000·t … 2000·t + 1999 of the features and of the aggregate, the whole of both
  weight matrices and of both one-row biases, and writes back rows 2000·t … 2000·t + 1999 of the result. So the block the
  body sees at entry (p, l) is the array at row 2000·t + p, and what point t writes back is the block of ONE whole-array
  function — the layer's specification `Cert.Gin.ginOut` of the arrays as the region finds them. The 50 row blocks tile
  the 100000 rows (row r belongs to point r / 2000), so after the run the result array is that function everywhere.

  Every read of a block is first stated for an ARBITRARY array behind the window: which entry of the array a block entry
  is depends on the window's index map alone, never on what the array holds.
-/
import proofs.«149661_j32487132627458_1_alg».proof.Proof.Gen.KernelIdeal.Value
import proofs.«149661_j32487132627458_1_alg».proof.Proof.GinPayload

noncomputable section

open scoped BigOperators

namespace Cert.Gin.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's rectangles start at the origin. -/
theorem origin : (![0, 0] : Fin 2 → Nat) = fun _ => 0 := funext fun a => by fin_cases a <;> rfl

/-- The block each window stages at point t, decided over the 50 points: the row windows (features, aggregate, result)
    take block t of the rows, the weight and bias windows their one block. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- A point's number is below 50. -/
theorem point_lt (t : Fin cfg0.N) : t.val < 50 := by
  have h := t.isLt
  have hN : cfg0.N = 50 := N_0
  omega

/-- Row 2000·t + p of a 100000-row array, for a point t and a row p of its block. -/
def rowOf (t : Fin cfg0.N) (p : Fin 2000) : Fin 100000 :=
  ⟨t.val * 2000 + p.val, by have := point_lt t; have := p.isLt; omega⟩

/-! ## A window's block read off an arbitrary array -/

/-- The feature window's block of any array, at (p, l): the array at row 2000·t + p. -/
theorem read_rows0 (A : S100000x128.Idx → EReal) (t : Fin cfg0.N) (p : Fin 2000) (l : Fin 128) :
    ((cfg0.win 0).blk t).view.read (Elt Ideal) A (ix2 p l) = A (ix2 (rowOf t p) l) := by
  obtain ⟨⟨e0, e1⟩, -⟩ := block_index t
  show A (((cfg0.win 0).blk t).view.emb (ix2 p l)) = _
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * l.val = l.val; rw [e1]; omega

/-- The aggregate window's block of any array, at (p, l): the array at row 2000·t + p. -/
theorem read_rows1 (A : S100000x128.Idx → EReal) (t : Fin cfg0.N) (p : Fin 2000) (l : Fin 128) :
    ((cfg0.win 1).blk t).view.read (Elt Ideal) A (ix2 p l) = A (ix2 (rowOf t p) l) := by
  obtain ⟨-, ⟨e0, e1⟩, -⟩ := block_index t
  show A (((cfg0.win 1).blk t).view.emb (ix2 p l)) = _
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * l.val = l.val; rw [e1]; omega

/-- The first weight window's block of any matrix is the matrix. -/
theorem read_whole2 (A : S128x128.Idx → EReal) (t : Fin cfg0.N) (a b : Fin 128) :
    ((cfg0.win 2).blk t).view.read (Elt Ideal) A (ix2 a b) = A (ix2 a b) := by
  obtain ⟨-, -, ⟨e0, e1⟩, -⟩ := block_index t
  show A (((cfg0.win 2).blk t).view.emb (ix2 a b)) = _
  refine congrArg A (funext fun d => Fin.ext ?_)
  match d with
  | ⟨0, _⟩ => show win0_2.index t (0 : Fin 2) * 128 + 1 * a.val = a.val; rw [e0]; omega
  | ⟨1, _⟩ => show win0_2.index t (1 : Fin 2) * 128 + 1 * b.val = b.val; rw [e1]; omega

/-- The first bias window's block of any one-row array is the array. -/
theorem read_whole3 (A : S1x128.Idx → EReal) (t : Fin cfg0.N) (k : Fin 128) :
    ((cfg0.win 3).blk t).view.read (Elt Ideal) A (ix2 (0 : Fin 1) k) = A (ix2 (0 : Fin 1) k) := by
  obtain ⟨-, -, -, ⟨e0, e1⟩, -⟩ := block_index t
  show A (((cfg0.win 3).blk t).view.emb (ix2 (0 : Fin 1) k)) = _
  refine congrArg A (funext fun d => Fin.ext ?_)
  match d with
  | ⟨0, _⟩ => show win0_3.index t (0 : Fin 2) * 1 + 1 * 0 = 0; rw [e0]
  | ⟨1, _⟩ => show win0_3.index t (1 : Fin 2) * 128 + 1 * k.val = k.val; rw [e1]; omega

/-- The second weight window's block of any matrix is the matrix. -/
theorem read_whole4 (A : S128x128.Idx → EReal) (t : Fin cfg0.N) (a b : Fin 128) :
    ((cfg0.win 4).blk t).view.read (Elt Ideal) A (ix2 a b) = A (ix2 a b) := by
  obtain ⟨-, -, -, -, ⟨e0, e1⟩, -⟩ := block_index t
  show A (((cfg0.win 4).blk t).view.emb (ix2 a b)) = _
  refine congrArg A (funext fun d => Fin.ext ?_)
  match d with
  | ⟨0, _⟩ => show win0_4.index t (0 : Fin 2) * 128 + 1 * a.val = a.val; rw [e0]; omega
  | ⟨1, _⟩ => show win0_4.index t (1 : Fin 2) * 128 + 1 * b.val = b.val; rw [e1]; omega

/-- The second bias window's block of any one-row array is the array. -/
theorem read_whole5 (A : S1x128.Idx → EReal) (t : Fin cfg0.N) (k : Fin 128) :
    ((cfg0.win 5).blk t).view.read (Elt Ideal) A (ix2 (0 : Fin 1) k) = A (ix2 (0 : Fin 1) k) := by
  obtain ⟨-, -, -, -, -, ⟨e0, e1⟩, -⟩ := block_index t
  show A (((cfg0.win 5).blk t).view.emb (ix2 (0 : Fin 1) k)) = _
  refine congrArg A (funext fun d => Fin.ext ?_)
  match d with
  | ⟨0, _⟩ => show win0_5.index t (0 : Fin 2) * 1 + 1 * 0 = 0; rw [e0]
  | ⟨1, _⟩ => show win0_5.index t (1 : Fin 2) * 128 + 1 * k.val = k.val; rw [e1]; omega

/-- Rows 2000·t … of any function of the result's index, read through the result window's block at point t: a block of
    values `Y` that agrees with `G` row for row IS that block of `G`. -/
theorem block_of_rows (Y : FVec Ideal S2000x128 .f32) (G : S100000x128.Idx → EReal) (t : Fin cfg0.N)
    (h : ∀ (p : Fin 2000) (q : Fin 128), Y (ix2 p q) = G (ix2 (rowOf t p) q)) :
    (cfg0.win 6).cut (grid0.coords t) Y = ((cfg0.win 6).blk t).view.read (Elt Ideal) G := by
  obtain ⟨-, -, -, -, -, -, ⟨e0, e1⟩⟩ := block_index t
  funext j
  obtain ⟨p, q, rfl⟩ : ∃ (p : Fin 2000) (q : Fin 128), j = ix2 p q := ⟨j 0, j 1, eq_ix2 j⟩
  show Y (ix2 p q) = G (((cfg0.win 6).blk t).view.emb (ix2 p q))
  rw [h p q]
  refine congrArg G (funext fun a => Fin.ext ?_)
  match a with
  | ⟨0, _⟩ => show t.val * 2000 + p.val = win0_6.index t (0 : Fin 2) * 2000 + 1 * p.val; rw [e0]; omega
  | ⟨1, _⟩ => show q.val = win0_6.index t (1 : Fin 2) * 128 + 1 * q.val; rw [e1]; omega

end Cert.Gin.Kernel

end
-- ==== Proof.GinHostPrefix.lean ====
/-
  What the host operations before the kernel leave in the arrays its windows stage.

  Before the kernel is launched the host computes the aggregate (each edge's source row, with a negative source index
  wrapped by the number of nodes, gathered from the features and scatter-added into a zero array at the edge's
  destination row), converts the two weight matrices to bf16, and casts the two bias vectors to one-row arrays. The
  aggregate is named here as ONE function of the features and the edge list and is never opened: both programs compute
  it by the same operations, so only its name is needed. On the extended reals the bf16 conversion is the identity (so a converted
  matrix is stated as the matrix), and a one-row cast read at its row is the vector.
-/
import proofs.«149661_j32487132627458_1_alg».proof.Proof.Gen.KernelIdeal.Frame
import Idealize.ShloMosaic.Lib.StableHlo.Run
import Idealize.ShloMosaic.Lib.ValueIdx
import Idealize.ShloMosaic.Lib.ValueLayout

noncomputable section

namespace Cert.Gin.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- THE AGGREGATE: for each node, the sum of the feature rows of the edges that end at it, as the host's operations
    compute it from the features `x` and the 2×1600000 edge list `e` (row 0 the sources, row 1 the destinations). -/
def aggregate (x : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (shapeCast _ (extractStridedSlice S1x1600000 ![1, 0] e slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0
        (select (cmpi .slt (shapeCast _ (extractStridedSlice S1x1600000 ![0, 0] e slices_S2x1600000_S1x1600000_0_0) shapeCasts_S1x1600000_S1600000) (broadcastInDim S1600000 ![] bcast_S_S1600000 (constantI S_ 32 0#32)))
          (addi (shapeCast _ (extractStridedSlice S1x1600000 ![0, 0] e slices_S2x1600000_S1x1600000_0_0) shapeCasts_S1x1600000_S1600000) (broadcastInDim S1600000 ![] bcast_S_S1600000 (constantI S_ 32 100000#32)))
          (shapeCast _ (extractStridedSlice S1x1600000 ![0, 0] e slices_S2x1600000_S1x1600000_0_0) shapeCasts_S1x1600000_S1600000))))

/-- The aggregate window's array, as the region finds it, is the aggregate of the launch features and edge list. -/
theorem aggregate_array (c : Dev nD) :
    (V m c main_v13 : (⟨S100000x128, .f32⟩ : BufTy).Contents (Elt Ideal))
      = aggregate (m ((c.tc : Thread nD τ).loc main_arg0)) (m ((c.tc : Thread nD τ).loc main_arg1)) := by
  unfold aggregate
  dsimp only [V, hostOps0]
  after_results
  rfl

/-- The first weight window's array is the first weight matrix: its conversion to bf16 changes no extended real. -/
theorem weight1_array (c : Dev nD) :
    (V m c main_v14 : S128x128.Idx → EReal) = (m ((c.tc : Thread nD τ).loc main_arg2) : S128x128.Idx → EReal) := by
  dsimp only [V, hostOps0]
  after_results
  rfl

/-- The second weight window's array is the second weight matrix, likewise. -/
theorem weight2_array (c : Dev nD) :
    (V m c main_v15 : S128x128.Idx → EReal) = (m ((c.tc : Thread nD τ).loc main_arg4) : S128x128.Idx → EReal) := by
  dsimp only [V, hostOps0]
  after_results
  rfl

/-- The first bias window's array is the first bias vector cast to one row. -/
theorem bias1_array (c : Dev nD) :
    (V m c main_v16 : (⟨S1x128, .f32⟩ : BufTy).Contents (Elt Ideal))
      = shapeCast S1x128 (m ((c.tc : Thread nD τ).loc main_arg3) : (⟨S128, .f32⟩ : BufTy).Contents (Elt Ideal)) shapeCasts_S128_S1x128 := by
  dsimp only [V, hostOps0]
  after_results
  rfl

/-- The second bias window's array is the second bias vector cast to one row. -/
theorem bias2_array (c : Dev nD) :
    (V m c main_v17 : (⟨S1x128, .f32⟩ : BufTy).Contents (Elt Ideal))
      = shapeCast S1x128 (m ((c.tc : Thread nD τ).loc main_arg5) : (⟨S128, .f32⟩ : BufTy).Contents (Elt Ideal)) shapeCasts_S128_S1x128 := by
  dsimp only [V, hostOps0]
  after_results
  rfl

/-- A bias vector cast to one row, read at (0, k), is the vector at k. -/
theorem one_row_apply (b : (⟨S128, .f32⟩ : BufTy).Contents (Elt Ideal)) (k : Fin 128) :
    shapeCast S1x128 b shapeCasts_S128_S1x128 (ix2 (0 : Fin 1) k) = b (ix1 k) :=
  shapeCast_a_1a_apply b shapeCasts_S128_S1x128 (0 : Fin 1) k

end Cert.Gin.Kernel

end
-- ==== Proof.GinKernelRun.lean ====
/-
  The kernel's run, read: its result array is the layer's specification of the arguments.

  What point t writes back is the block of rows 2000·t … of ONE function of the arrays the region finds (the body's payload
  read row by row against those arrays); the 50 blocks tile the 100000 rows; so the result array is that function. The
  arrays the region finds are the features as launched, the aggregate the host prefix computed, and the weights and biases
  behind a format conversion and a one-row cast that change no value — so the function is `Cert.Gin.ginOut` of the six
  arguments and the aggregate.
-/
import proofs.«149661_j32487132627458_1_alg».proof.Proof.Gen.KernelIdeal.Value
import proofs.«149661_j32487132627458_1_alg».proof.Proof.GinBlocks
import proofs.«149661_j32487132627458_1_alg».proof.Proof.GinHostPrefix

noncomputable section

open scoped BigOperators

namespace Cert.Gin.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One whole-array function of the staged arrays -/

/-- The layer's specification of six staged arrays: features, aggregate, the two weight matrices, and the two biases as
    one-row arrays read at their row. -/
def outOf (X A : S100000x128.Idx → EReal) (W1 W2 : S128x128.Idx → EReal) (B1 B2 : S1x128.Idx → EReal) :
    S100000x128.Idx → EReal :=
  ginOut X A W1 (fun j => B1 (ix2 (0 : Fin 1) (j 0))) W2 (fun j => B2 (ix2 (0 : Fin 1) (j 0)))

/-- It depends on the six arrays only. -/
theorem outOf_congr {X X' A A' : S100000x128.Idx → EReal} {W1 W1' W2 W2' : S128x128.Idx → EReal} {B1 B1' B2 B2' : S1x128.Idx → EReal}
    (hX : X = X') (hA : A = A') (h1 : W1 = W1') (h2 : W2 = W2') (h3 : B1 = B1') (h4 : B2 = B2') :
    outOf X A W1 W2 B1 B2 = outOf X' A' W1' W2' B1' B2' := by
  subst hX hA h1 h2 h3 h4; rfl

/-- Behind one-row biases it is the specification of the bias vectors themselves. -/
theorem outOf_args (x a : S100000x128.Idx → EReal) (w1 w2 : S128x128.Idx → EReal)
    (b1 b2 : (⟨S128, .f32⟩ : BufTy).Contents (Elt Ideal)) :
    outOf x a w1 w2 (shapeCast S1x128 b1 shapeCasts_S128_S1x128) (shapeCast S1x128 b2 shapeCasts_S128_S1x128)
      = ginOut x a w1 b1 w2 b2 := by
  have e1 : (fun j : S128.Idx => shapeCast S1x128 b1 shapeCasts_S128_S1x128 (ix2 (0 : Fin 1) (j 0))) = b1 :=
    funext fun j => (one_row_apply b1 (j 0)).trans (congrArg b1 (eq_ix1 j).symm)
  have e2 : (fun j : S128.Idx => shapeCast S1x128 b2 shapeCasts_S128_S1x128 (ix2 (0 : Fin 1) (j 0))) = b2 :=
    funext fun j => (one_row_apply b2 (j 0)).trans (congrArg b2 (eq_ix1 j).symm)
  unfold outOf
  rw [e1, e2]

/-- The specification of the arrays as the region finds them. -/
def regionOut (c : Dev nD) : S100000x128.Idx → EReal :=
  outOf (V m c main_arg0) (V m c main_v13) (V m c main_v14) (V m c main_v15) (V m c main_v16) (V m c main_v17)

/-! ## What a point writes back -/

/-- The body's payload on point t's blocks, at (p, q), is the specification at row 2000·t + p, column q: each block entry
    is its array's entry (the block reads), and the payload is the perceptron of the row. -/
theorem payload_block (c : Dev nD) (t : Fin cfg0.N) (p : Fin 2000) (q : Fin 128) :
    k0_pay1 (F := Ideal) (iblk m c 0 t) (iblk m c 1 t) (iblk m c 2 t) (iblk m c 3 t) (iblk m c 4 t) (iblk m c 5 t) (ix2 p q)
      = regionOut m c (ix2 (rowOf t p) q) :=
  payload_rows (V m c main_arg0) (V m c main_v13) (V m c main_v14) (V m c main_v15) (V m c main_v16) (V m c main_v17)
    (iblk m c 0 t) (iblk m c 1 t) (iblk m c 2 t) (iblk m c 3 t) (iblk m c 4 t) (iblk m c 5 t) (rowOf t p) p
    (fun l => read_rows0 (V m c main_arg0) t p l) (fun l => read_rows1 (V m c main_v13) t p l)
    (fun a b => read_whole2 (V m c main_v14) t a b) (fun k => read_whole3 (V m c main_v16) t k)
    (fun a b => read_whole4 (V m c main_v15) t a b) (fun k => read_whole5 (V m c main_v17) t k) q

/-- WHAT POINT t WRITES BACK is block t of the specification of the arrays the region finds. -/
theorem flushed_eq (c : Dev nD) (t : Fin cfg0.N) :
    (dats m 0 c).flushed 6 t = ((cfg0.win 6).blk t).view.read (Elt Ideal) (regionOut m c) := by
  rw [flushed6 m c t]
  unfold out0_6
  rw [View.canon_unit_zero origin]
  simp only [View.ld_unit_zero (S := S2000x128) origin, View.ld_unit_zero (S := S128x128) origin,
    View.ld_unit_zero (S := S1x128) origin]
  exact block_of_rows
    (k0_pay1 (F := Ideal) (iblk m c 0 t) (iblk m c 1 t) (iblk m c 2 t) (iblk m c 3 t) (iblk m c 4 t) (iblk m c 5 t))
    (regionOut m c) t (payload_block m c t)

/-! ## The blocks tile the array -/

/-- An index of the result array is in point t's block iff each coordinate is in the block's range on its axis. -/
theorem mem_result_block (t : Fin cfg0.N) (i : S100000x128.Idx) :
    i ∈ ((cfg0.win 6).blk t).view.set
      ↔ ∀ a : Fin 2, win0_6.index t a * S2000x128.size a ≤ (i a).val ∧ (i a).val < win0_6.index t a * S2000x128.size a + S2000x128.size a := by
  show i ∈ ((View.whole main_v18).slice (win0_6.rect t)).set ↔ _
  rw [View.set_slice_whole, Rect.mem_set_unit]
  exact Iff.rfl

/-- Every index of the result array is in the block of the point its row belongs to: row r is in block r / 2000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, ⟨e0, e1⟩⟩ := block_index t
  refine ⟨t, flush0_6 t, ?_⟩
  rw [mem_result_block]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-! ## The array after the run, and the run -/

/-- THE RESULT ARRAY after the run is the specification of the arrays the region finds. -/
theorem final (c : Dev nD) : (dats m 0 c).arrAt 6 cfg0.N = regionOut m c :=
  (dats m 0 c).arrAt_eq_of_cover 6 (regionOut m c) (fun t _ => flushed_eq m c t) covered

/-- The arrays the region finds are the arguments behind the host prefix: the result is the specification of the six
    arguments with the aggregate the prefix computed. -/
theorem regionOut_eq (c : Dev nD) :
    regionOut m c
      = ginOut (m ((c.tc : Thread nD τ).loc main_arg0))
          (aggregate (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5)) :=
  (outOf_congr (V_main_arg0 m c) (aggregate_array m c) (weight1_array m c) (weight2_array m c) (bias1_array m c)
      (bias2_array m c)).trans (outOf_args _ _ _ _ _ _)

/-- THE KERNEL'S RUN: every weakly fair execution terminates with the result array at the specification of the arguments
    and the aggregate, the arguments unchanged. -/
theorem run : θ_run defs (onTc (τ := τ) (main (F := Ideal))) ⟨m, fun _ => 0, ρ⟩ fun r => ∀ c : Dev nD,
      r.2.mem ((c : Thread nD τ).loc main_v18)
        = ginOut (m ((c.tc : Thread nD τ).loc main_arg0))
            (aggregate (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (regionOut_eq m c)), (h c).2⟩)
    (run_blocks m ρ)

end Cert.Gin.Kernel

end
-- ==== Proof.GinReference.lean ====
/-
  The reference program's result is the layer's specification.

  The reference adds the aggregate to the features, multiplies by W1, adds b1 laid along every row, rectifies against a
  zero splat, multiplies by W2 and adds b2 laid along every row. Read at entry (r, c), each product is the sum over the
  contracted feature, each bias row is the bias at the column, and the result is `Cert.Gin.ginOut` of the arguments with
  the aggregate the reference computed (its stage `val_main_v13`, kept closed).
-/
import proofs.«149661_j32487132627458_1_alg».proof.Proof.Gen.ReferenceIdeal.Read
import proofs.«149661_j32487132627458_1_alg».proof.Proof.GinSpec

noncomputable section

open scoped BigOperators

namespace Cert.Gin.Reference

open Cert.ReferenceIdeal Cert.ReferenceIdeal.Read Idealize.ShloMosaic Idealize.ShloMosaic.ValueIdx

/-! ## Which operand entries each stage reads at (r, c) -/

/-- The second product's left factor at (r, c), contraction k: hidden unit (r, k). -/
theorem lidx20 (r : Fin 100000) (c k : Fin 128) : lidx_main_v20 (ix2 r c) k = ix2 r k :=
  funext fun a => by match a with | ⟨0, _⟩ => rfl | ⟨1, _⟩ => rfl
/-- The second product's right factor: W2 (k, c). -/
theorem ridx20 (r : Fin 100000) (c k : Fin 128) : ridx_main_v20 (ix2 r c) k = ix2 k c :=
  funext fun a => by match a with | ⟨0, _⟩ => rfl | ⟨1, _⟩ => rfl
/-- The first product's left factor at (r, k), contraction l: the summed row's entry (r, l). -/
theorem lidx15 (r : Fin 100000) (k l : Fin 128) : lidx_main_v15 (ix2 r k) l = ix2 r l :=
  funext fun a => by match a with | ⟨0, _⟩ => rfl | ⟨1, _⟩ => rfl
/-- The first product's right factor: W1 (l, k). -/
theorem ridx15 (r : Fin 100000) (k l : Fin 128) : ridx_main_v15 (ix2 r k) l = ix2 l k :=
  funext fun a => by match a with | ⟨0, _⟩ => rfl | ⟨1, _⟩ => rfl
/-- The first bias laid along the rows reads, at (r, k), the bias at k. -/
theorem idx16 (r : Fin 100000) (k : Fin 128) : idx_main_v16 (idx_main_v17 (ix2 r k)) = ix1 k :=
  funext fun a => by match a with | ⟨0, _⟩ => rfl
/-- The second bias laid along the rows reads, at (r, c), the bias at c. -/
theorem idx21 (r : Fin 100000) (c : Fin 128) : idx_main_v21 (idx_main_v22 (ix2 r c)) = ix1 c :=
  funext fun a => by match a with | ⟨0, _⟩ => rfl

/-! ## The hidden layer, then the result -/

/-- The reference's rectified first layer at (r, k) is hidden unit k of row r of features plus aggregate. -/
theorem hidden_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (r : Fin 100000) (k : Fin 128) :
    val_main_v19 (F := Ideal) x0 x1 x2 x3 (ix2 r k)
      = hiddenUnit (fun l => x0 (ix2 r l) + val_main_v13 (F := Ideal) x0 x1 (ix2 r l)) x2 (fun k => x3 (ix1 k)) k := by
  rw [val_main_v19_apply, val_main_v18_apply, val_main_v15_apply, val_main_v17_apply, val_main_v16_apply,
    val_main_call0_v0_apply, val_main_call0_cst_apply, idx16]
  simp only [val_main_v14_apply, lidx15, ridx15]
  rfl

/-- THE REFERENCE IS THE SPECIFICATION: its last stage, as a function of the six arguments, is `ginOut` of them with
    the aggregate its scatter stage holds. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v23 (F := Ideal) x0 x1 x2 x3 x4 x5 = ginOut x0 (val_main_v13 (F := Ideal) x0 x1) x2 x3 x4 x5 := by
  funext i
  obtain ⟨r, c, rfl⟩ : ∃ (r : Fin 100000) (c : Fin 128), i = ix2 r c := ⟨i 0, i 1, eq_ix2 i⟩
  rw [val_main_v23_apply, val_main_v20_apply, val_main_v22_apply, val_main_v21_apply, idx21, ginOut_apply]
  simp only [lidx20, ridx20, hidden_apply]
  rfl

end Cert.Gin.Reference

end
-- ==== Proof.GinAggregate.lean ====
/-
  Both programs compute the same aggregate.

  The kernel's program and the reference gather the source rows and scatter-add them at the destination rows by the same
  host operations, with the same literals (the zero the sums start from, the number of nodes a negative source index is
  wrapped by), applied to the same two arguments. So the reference's scatter stage and the aggregate the kernel's host
  prefix leaves are one function of the features and the edge list: equal by their definitions, with neither the gather nor
  the scatter opened.
-/
import proofs.«149661_j32487132627458_1_alg».proof.Proof.GinHostPrefix
import proofs.«149661_j32487132627458_1_alg».proof.Proof.Gen.ReferenceIdeal.Read

noncomputable section

namespace Cert.Gin

open Idealize.ShloMosaic

/-- The reference's scatter stage is the aggregate of the kernel's host prefix, as functions of features and edge list. -/
theorem reference_aggregate (x : (⟨Cert.ReferenceIdeal.S100000x128, .f32⟩ : BufTy).Contents (Elt Ideal))
    (e : (⟨Cert.ReferenceIdeal.S2x1600000, .i32⟩ : BufTy).Contents (Elt Ideal)) :
    Cert.ReferenceIdeal.Read.val_main_v13 (F := Ideal) x e = Cert.Gin.Kernel.aggregate x e := rfl

end Cert.Gin

end
-- ==== Proof.lean ====
/-
  The dense half of a graph-isomorphism layer: a row-tiled kernel against its plain reference, over the extended reals.

  Both programs first form, on the host and by the same operations, the aggregate `agg` (for each of the 100000 nodes the sum
  of the 128-feature rows of the edges ending at it). The reference then computes, for the whole array at once,
      relu ((x + agg) · W1 + b1) · W2 + b2,
  and the kernel computes the same thing 2000 rows at a time: each of its 50 grid points adds its row blocks of `x` and
  `agg`, multiplies by W1 (after a rounding to bf16 that is the identity on the extended reals) into a zero accumulator,
  adds b1, takes the maximum with zero, multiplies by W2 likewise, adds b2 and writes the 2000 rows back.

  Why the two agree: entry (r, c) of either result depends on row r of `x + agg` alone — it is
      (∑ k, max (∑ l, (x r l + agg r l) · W1 l k + b1 k) 0 · W2 k c) + b2 c
  (`Cert.Gin.ginOut`) — and a row block of the kernel contains whole rows, so tiling the rows changes no sum: every sum
  runs over the same 128 features in the same order on both sides, and no term is moved across a sum. No law that
  needs finiteness is used, so the precondition is never opened. The aggregate is carried as one closed function of the
  features and the edge list; the two programs' copies of it are the same term.

  The pieces: the specification (GinSpec); the reference's last stage is the specification (GinReference); the kernel
  body's payload at a block entry is the specification's row formula (GinPayload, over the plain-product lemma LibPlainDot);
  each window's block entry is an entry of its array, and a block of values that agrees with a whole-array function row for
  row is that function's block (GinBlocks); what the host prefix leaves in the staged arrays (GinHostPrefix); the result
  array after the run (GinKernelRun); the two aggregates are one (GinAggregate). The three frames are the generated frame
  of each kernel program and the reference's generated run; nothing was rewritten by the idealization, so the
  preservation claim is trivial.
-/
import proofs.«149661_j32487132627458_1_alg».proof.Defs
import proofs.«149661_j32487132627458_1_alg».proof.Proof.Gen.Kernel
import proofs.«149661_j32487132627458_1_alg».proof.Proof.Gen.Kernel.Skeleton
import proofs.«149661_j32487132627458_1_alg».proof.Proof.Gen.Kernel.Launch
import proofs.«149661_j32487132627458_1_alg».proof.Proof.Gen.Kernel.Points
import proofs.«149661_j32487132627458_1_alg».proof.Proof.Gen.Kernel.Frame
import proofs.«149661_j32487132627458_1_alg».proof.Proof.Gen.KernelIdeal
import proofs.«149661_j32487132627458_1_alg».proof.Proof.Gen.KernelIdeal.Skeleton
import proofs.«149661_j32487132627458_1_alg».proof.Proof.Gen.KernelIdeal.Launch
import proofs.«149661_j32487132627458_1_alg».proof.Proof.Gen.KernelIdeal.Points
import proofs.«149661_j32487132627458_1_alg».proof.Proof.Gen.KernelIdeal.Frame
import proofs.«149661_j32487132627458_1_alg».proof.Proof.Gen.ReferenceIdeal
import proofs.«149661_j32487132627458_1_alg».proof.Proof.Gen.Pre_finite_inputs
import proofs.«149661_j32487132627458_1_alg».proof.Proof.Gen.KernelIdeal.Value
import proofs.«149661_j32487132627458_1_alg».proof.Proof.Gen.ReferenceIdeal.Run
import proofs.«149661_j32487132627458_1_alg».proof.Proof.Gen.ReferenceIdeal.Read
import proofs.«149661_j32487132627458_1_alg».proof.Proof.GinKernelRun
import proofs.«149661_j32487132627458_1_alg».proof.Proof.GinReference
import proofs.«149661_j32487132627458_1_alg».proof.Proof.GinAggregate
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, the kernel's result array ends at the specification of the arguments
    and the aggregate (its run, read), and the reference's at its last stage, which is the same specification with the
    same aggregate: equal element by element. -/
theorem algebraic : Cert.algebraic_KernelIdeal_ReferenceIdeal := by
  intro m ρ m' ρ' _ hagree
  refine ⟨_, Cert.Gin.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v23_eq _ _ _ _ _ _).trans
    ((Cert.Gin.Reference.result_eq _ _ _ _ _ _).trans
      (congrArg (fun A => Cert.Gin.ginOut _ A _ _ _ _) (Cert.Gin.reference_aggregate _ _)))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
